-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v35)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S128x64 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg6
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg7
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S1600000 32) (main_arg2 : IVec S1600000 32) (main_arg3 : FVec F S128x128 .f32) (main_arg4 : FVec F S128x128 .f32) (main_arg5 : FVec F S128 .f32) (main_arg6 : FVec F S128x64 .f32) (main_arg7 : FVec F S128x64 .f32) (main_arg8 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S100000x1 : Shape := ⟨2, ![100000, 1]⟩
abbrev S1600000x128 : Shape := ⟨2, ![1600000, 128]⟩
abbrev S1x128 : Shape := ⟨2, ![1, 128]⟩
abbrev S2000x128 : Shape := ⟨2, ![2000, 128]⟩
abbrev S1x64 : Shape := ⟨2, ![1, 64]⟩
abbrev S100000x64 : Shape := ⟨2, ![100000, 64]⟩
abbrev S2000x64 : Shape := ⟨2, ![2000, 64]⟩

abbrev nBuf : Space → Nat
  | .hbm => 55
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .f32⟩
  | .hbm, ⟨10, _⟩ => ⟨S1600000x1, .f32⟩
  | .hbm, ⟨11, _⟩ => ⟨S_, .f32⟩
  | .hbm, ⟨12, _⟩ => ⟨S100000x1, .f32⟩
  | .hbm, ⟨13, _⟩ => ⟨S1600000x1, .i32⟩
  | .hbm, ⟨14, _⟩ => ⟨S100000x1, .f32⟩
  | .hbm, ⟨15, _⟩ => ⟨S_, .f32⟩
  | .hbm, ⟨16, _⟩ => ⟨S100000x1, .f32⟩
  | .hbm, ⟨17, _⟩ => ⟨S100000x1, .f32⟩
  | .hbm, ⟨18, _⟩ => ⟨S_, .f32⟩
  | .hbm, ⟨19, _⟩ => ⟨S100000x1, .f32⟩
  | .hbm, ⟨20, _⟩ => ⟨S100000x1, .f32⟩
  | .hbm, ⟨21, _⟩ => ⟨S_, .i32⟩
  | .hbm, ⟨22, _⟩ => ⟨S1600000, .i32⟩
  | .hbm, ⟨23, _⟩ => ⟨S1600000, .i1⟩
  | .hbm, ⟨24, _⟩ => ⟨S_, .i32⟩
  | .hbm, ⟨25, _⟩ => ⟨S1600000, .i32⟩
  | .hbm, ⟨26, _⟩ => ⟨S1600000, .i32⟩
  | .hbm, ⟨27, _⟩ => ⟨S1600000, .i32⟩
  | .hbm, ⟨28, _⟩ => ⟨S1600000x1, .i32⟩
  | .hbm, ⟨29, _⟩ => ⟨S1600000x128, .f32⟩
  | .hbm, ⟨30, _⟩ => ⟨S_, .f32⟩
  | .hbm, ⟨31, _⟩ => ⟨S100000x128, .f32⟩
  | .hbm, ⟨32, _⟩ => ⟨S1600000x1, .i32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S_, .i32⟩
  | .hbm, ⟨39, _⟩ => ⟨S1600000, .i32⟩
  | .hbm, ⟨40, _⟩ => ⟨S1600000, .i1⟩
  | .hbm, ⟨41, _⟩ => ⟨S_, .i32⟩
  | .hbm, ⟨42, _⟩ => ⟨S1600000, .i32⟩
  | .hbm, ⟨43, _⟩ => ⟨S1600000, .i32⟩
  | .hbm, ⟨44, _⟩ => ⟨S1600000, .i32⟩
  | .hbm, ⟨45, _⟩ => ⟨S1600000x1, .i32⟩
  | .hbm, ⟨46, _⟩ => ⟨S1600000x128, .f32⟩
  | .hbm, ⟨47, _⟩ => ⟨S_, .f32⟩
  | .hbm, ⟨48, _⟩ => ⟨S100000x128, .f32⟩
  | .hbm, ⟨49, _⟩ => ⟨S1600000x1, .i32⟩
  | .hbm, ⟨50, _⟩ => ⟨S100000x128, .f32⟩
  | .hbm, ⟨51, _⟩ => ⟨S100000x128, .f32⟩
  | .hbm, ⟨52, _⟩ => ⟨S100000x128, .f32⟩
  | .hbm, ⟨53, _⟩ => ⟨S1x64, .f32⟩
  | .hbm, ⟨54, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S2000x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S2000x64, .f32⟩
  | .local _ .vmem, ⟨17, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_c : Ref sig .tc := ⟨.hbm, 21, rfl⟩
abbrev main_v8 : Ref sig .tc := ⟨.hbm, 22, rfl⟩
abbrev main_v9 : Ref sig .tc := ⟨.hbm, 23, rfl⟩
abbrev main_c_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_5 : Ref sig .tc := ⟨.hbm, 38, rfl⟩
abbrev main_v22 : Ref sig .tc := ⟨.hbm, 39, rfl⟩
abbrev main_v23 : Ref sig .tc := ⟨.hbm, 40, rfl⟩
abbrev main_c_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_7 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S1600000x1 : S_.BroadcastsInDim S1600000x1 (![] : Fin 0 → Fin S1600000x1.rank)
  bcast_S_S100000x1 : S_.BroadcastsInDim S100000x1 (![] : Fin 0 → Fin S100000x1.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S100000x1_S1600000x1_S1600000x1_1_0_0_1_wf : ScatterDims.WF S100000x1 S1600000x1 S1600000x1 [1] [0] [0] 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x128.size a ≤ S100000x128.size a
  hwx0_5 : ∀ i : grid0.Coords, EltTy.bits .f32 = 32 ∨ (Rect.block (s := S100000x128) S2000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S100000x128.size a
  hwx1_1 : ∀ i : grid1.Coords, EltTy.bits .f32 = 32 ∨ (Rect.block (s := S100000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x64.size a ≤ S100000x64.size a
  hwx1_5 : ∀ i : grid1.Coords, EltTy.bits .f32 = 32 ∨ (Rect.block (s := S100000x64) S2000x64.size (cc1_transform_5 i) (hinb1_5 i)).WholeWords (EltTy.packing .f32)

variable [Facts₀]

def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S2000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S2000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩
abbrev S1600000x1 : Shape := ⟨2, ![1600000, 1]⟩
abbrev S1600000x128 : Shape := ⟨2, ![1600000, 128]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 75
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S128x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x128, .f32⟩
  | .hbm, ⟨18, _⟩ => ⟨S_, .f32⟩
  | .hbm, ⟨19, _⟩ => ⟨S100000x128, .f32⟩
  | .hbm, ⟨20, _⟩ => ⟨S1600000x1, .i32⟩
  | .hbm, ⟨21, _⟩ => ⟨S100000x128, .f32⟩
  | .hbm, ⟨22, _⟩ => ⟨S_, .f32⟩
  | .hbm, ⟨23, _⟩ => ⟨S1600000x1, .f32⟩
  | .hbm, ⟨24, _⟩ => ⟨S_, .f32⟩
  | .hbm, ⟨25, _⟩ => ⟨S100000x1, .f32⟩
  | .hbm, ⟨26, _⟩ => ⟨S1600000x1, .i32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1x128, .f32⟩
  | .hbm, ⟨37, _⟩ => ⟨S100000x128, .f32⟩
  | .hbm, ⟨38, _⟩ => ⟨S100000x128, .f32⟩
  | .hbm, ⟨39, _⟩ => ⟨S_, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S_, .f32⟩
  | .hbm, ⟨56, _⟩ => ⟨S1600000x1, .f32⟩
  | .hbm, ⟨57, _⟩ => ⟨S_, .f32⟩
  | .hbm, ⟨58, _⟩ => ⟨S100000x1, .f32⟩
  | .hbm, ⟨59, _⟩ => ⟨S1600000x1, .i32⟩
  | .hbm, ⟨60, _⟩ => ⟨S100000x1, .f32⟩
  | .hbm, ⟨61, _⟩ => ⟨S_, .f32⟩
  | .hbm, ⟨62, _⟩ => ⟨S100000x1, .f32⟩
  | .hbm, ⟨63, _⟩ => ⟨S100000x1, .f32⟩
  | .hbm, ⟨64, _⟩ => ⟨S100000x128, .f32⟩
  | .hbm, ⟨65, _⟩ => ⟨S100000x128, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S1x64, .f32⟩
  | .hbm, ⟨70, _⟩ => ⟨S100000x64, .f32⟩
  | .hbm, ⟨71, _⟩ => ⟨S100000x64, .f32⟩
  | .hbm, ⟨72, _⟩ => ⟨S_, .f32⟩
  | .hbm, ⟨73, _⟩ => ⟨S100000x64, .f32⟩
  | .hbm, ⟨74, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_1 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call0_cst : Ref sig .tc := ⟨.hbm, 39, rfl⟩
abbrev main_call0_v0 : Ref sig .tc := ⟨.hbm, 40, rfl⟩
abbrev main_v24 : Ref sig .tc := ⟨.hbm, 41, rfl⟩
abbrev main_c_4 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_call1_cst : Ref sig .tc := ⟨.hbm, 72, rfl⟩
abbrev main_call1_v0 : Ref sig .tc := ⟨.hbm, 73, rfl⟩
abbrev main_v49 : Ref sig .tc := ⟨.hbm, 74, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000x1_S1600000x1_S1600000x1_1_0_0_1_wf : ScatterDims.WF S100000x1 S1600000x1 S1600000x1 [1] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.LibDotPlain.lean ====
/-
  A plain matrix product read at an entry.

  For dimension numbers that contract the left operand's axis 1 with the right operand's axis 0 and have no batch axes
  (an [M, K] matrix times a [K, N] matrix), the sum over the contraction shape that both a kernel's matrix product into
  a zero accumulator and a host dot product are, at the extended reals, is the textbook sum over k < K of
  x(p, k) · w(k, q): the left operand's index at output entry (p, q) and contraction position k is (p, k), the right
  operand's is (k, q), and a one-axis contraction position is its one coordinate.
-/
import Idealize.ShloMosaic.Lib.ValueIdx
import Idealize.ShloMosaic.PureOps.Ideal.Laws

noncomputable section

namespace Idealize.ShloMosaic.DotPlain

open Idealize.ShloMosaic Idealize.ShloMosaic.ValueIdx

variable {M K N : Nat} (D : DotDims ⟨2, ![M, K]⟩ ⟨2, ![K, N]⟩ ⟨2, ![M, N]⟩)

/-- The left operand's row coordinate is the output entry's row. -/
theorem lhs_row (hln : D.lhsNonContracting = [0]) (hlb : D.lhsBatch = []) (j : (⟨2, ![M, N]⟩ : Shape).Idx) (k : D.contr.Idx) :
    (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln])

/-- The right operand's column coordinate is the output entry's column. -/
theorem rhs_col (hln : D.lhsNonContracting = [0]) (hrn : D.rhsNonContracting = [1]) (hlb : D.lhsBatch = []) (hrb : D.rhsBatch = [])
    (j : (⟨2, ![M, N]⟩ : Shape).Idx) (k : D.contr.Idx) :
    (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < (⟨2, ![M, N]⟩ : Shape).rank) (hb : b < (⟨2, ![M, N]⟩ : Shape).rank), a = b →
      (j ⟨a, ha⟩).val = (j ⟨b, hb⟩).val := fun a b ha hb h => by subst h; rfl
  exact key _ _ _ _ (by simp [hlb, hln, hrn])

/-- THE SUM: over the contraction shape it is the sum over `k < K` of `x (p, k) · w (k, q)`. -/
theorem sum_eq (hlc : D.lhsContracting = [1]) (hrc : D.rhsContracting = [0]) (hln : D.lhsNonContracting = [0])
    (hrn : D.rhsNonContracting = [1]) (hlb : D.lhsBatch = []) (hrb : D.rhsBatch = [])
    (hr : D.contr.rank = 1) (hs : D.contr.size ⟨0, by omega⟩ = K)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) := by
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhs_row D hln hlb _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhs_col D hln hrn hlb hrb _ _)
  rw [el, er]

end Idealize.ShloMosaic.DotPlain

end
-- ==== Proof.SageSpec.lean ====
/-
  One graph-convolution layer of the mean-aggregating kind, as a function of its operand arrays, entry by entry.

  At output entry (p, q) the layer is

      max ( (Σ_k x(p,k)·Ws(k,q) + Σ_k h(p,k)·Wn(k,q)) + b(q), 0 )

  over the extended reals: two plain matrix products (node features against the self weights, aggregated neighbour
  features against the neighbour weights), added, then the bias of column q, then the positive part. The file states
  this function (`layerAt`, `layer`), shows that a host program's two dot products, two additions and maximum with a
  zero array are this function (`hostLayer_eq`), and that a kernel body's two matrix products into zero accumulators
  on operands narrowed to bf16 (the identity at the extended reals), addition of a broadcast bias row and maximum with
  a zero splat are the same function of the body's five loaded blocks (`kernelLayer_apply`).

  It also has the one law of extended-real arithmetic the comparison of the two programs needs: multiplying by the
  quotient 1/d is dividing by d, for a divisor d that is at least 1 (`mul_one_div`). The divisor is never zero, so the
  quotient is the product with the inverse on both sides, and 1·d⁻¹ = d⁻¹.
-/
import Idealize.ShloMosaic.Lib.ValueIdx
import Idealize.ShloMosaic.Lib.ValueLayout
import Idealize.ShloMosaic.Lib.Pipeline.Value
import Idealize.ShloMosaic.PureOps.Ideal.Laws
import proofs.«150798_j34514357191329_1_alg».proof.Proof.LibDotPlain

noncomputable section

namespace Cert.Sage

open Idealize.ShloMosaic Idealize.ShloMosaic.ValueIdx

variable {M K N : Nat}

/-- The layer at output entry (p, q). -/
def layerAt (x hn : (⟨2, ![M, K]⟩ : Shape).Idx → EReal) (ws wn : (⟨2, ![K, N]⟩ : Shape).Idx → EReal)
    (b : (⟨1, ![N]⟩ : Shape).Idx → EReal) (p : Fin M) (q : Fin N) : EReal :=
  max ((∑ k : Fin K, x (ix2 p k) * ws (ix2 k q) + ∑ k : Fin K, hn (ix2 p k) * wn (ix2 k q)) + b (ix1 q)) 0

/-- The layer as a whole array. -/
def layer (x hn : (⟨2, ![M, K]⟩ : Shape).Idx → EReal) (ws wn : (⟨2, ![K, N]⟩ : Shape).Idx → EReal)
    (b : (⟨1, ![N]⟩ : Shape).Idx → EReal) : (⟨2, ![M, N]⟩ : Shape).Idx → EReal :=
  fun i => layerAt x hn ws wn b (i 0) (i 1)

theorem layer_ix2 (x hn : (⟨2, ![M, K]⟩ : Shape).Idx → EReal) (ws wn : (⟨2, ![K, N]⟩ : Shape).Idx → EReal)
    (b : (⟨1, ![N]⟩ : Shape).Idx → EReal) (p : Fin M) (q : Fin N) :
    layer x hn ws wn b (ix2 p q) = layerAt x hn ws wn b p q := rfl

/-- Dimension numbers of a plain [M, K] × [K, N] product: contract the left operand's axis 1 with the right operand's
    axis 0, no batch axes. -/
structure Plain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []
  hr : D.contr.rank = 1
  hs : D.contr.size ⟨0, by omega⟩ = K

/-- A plain product's contraction sum at entry (p, q). -/
theorem Plain.sum_eq {D : DotDims ⟨2, ![M, K]⟩ ⟨2, ![K, N]⟩ ⟨2, ![M, N]⟩} (h : Plain D)
    (x : (⟨2, ![M, K]⟩ : Shape).Idx → EReal) (w : (⟨2, ![K, N]⟩ : Shape).Idx → EReal) (p : Fin M) (q : Fin N) :
    ∑ k : D.contr.Idx, x (D.lhsIdx (ix2 p q) k) * w (D.rhsIdx (ix2 p q) k) = ∑ k : Fin K, x (ix2 p k) * w (ix2 k q) :=
  DotPlain.sum_eq D h.lc h.rc h.ln h.rn h.lb h.rb h.hr h.hs x w p q

/-- THE HOST'S LAYER: two dot products added, a bias array added, the maximum with a zero array. -/
theorem hostLayer_eq {D : DotDims ⟨2, ![M, K]⟩ ⟨2, ![K, N]⟩ ⟨2, ![M, N]⟩} (h : Plain D)
    (x hn : FVec Ideal ⟨2, ![M, K]⟩ .f32) (ws wn : FVec Ideal ⟨2, ![K, N]⟩ .f32) (brow zero : FVec Ideal ⟨2, ![M, N]⟩ .f32)
    (b : (⟨1, ![N]⟩ : Shape).Idx → EReal) (hb : ∀ (p : Fin M) (q : Fin N), brow (ix2 p q) = b (ix1 q)) (hz : ∀ i, zero i = 0) :
    maximumf (addf (addf (Host.dotGeneral D none x ws) (Host.dotGeneral D none hn wn)) brow) zero = layer x hn ws wn b := by
  funext i
  obtain ⟨p, q, rfl⟩ : ∃ (p : Fin M) (q : Fin N), i = ix2 p q := ⟨i 0, i 1, eq_ix2 i⟩
  rw [layer_ix2, maximumf_apply, addf_apply, addf_apply, hb, hz]
  simp only [Host.dotGeneral]
  rw [Ideal.dotGeneral_apply, Ideal.dotGeneral_apply, h.sum_eq, h.sum_eq]
  rfl

/-- A kernel body's layer on its five loaded blocks. -/
def kernelLayer (D : DotDims ⟨2, ![M, K]⟩ ⟨2, ![K, N]⟩ ⟨2, ![M, N]⟩) (hbc : (⟨2, ![1, N]⟩ : Shape).Broadcasts ⟨2, ![M, N]⟩)
    (hlt : FTy.bf16.bits < FTy.f32.bits)
    (x0 x1 : FVec Ideal ⟨2, ![M, K]⟩ .f32) (x2 x3 : FVec Ideal ⟨2, ![K, N]⟩ .f32) (x4 : FVec Ideal ⟨2, ![1, N]⟩ .f32) :
    FVec Ideal ⟨2, ![M, N]⟩ .f32 :=
  maximumf
    (addf
      (addf (matmul D none (truncf .bf16 x0 hlt) (truncf .bf16 x2 hlt) (constant ⟨2, ![M, N]⟩ .f32 0x00000000#32))
        (matmul D none (truncf .bf16 x1 hlt) (truncf .bf16 x3 hlt) (constant ⟨2, ![M, N]⟩ .f32 0x00000000#32)))
      (broadcastTo ⟨2, ![M, N]⟩ x4 hbc))
    (broadcast ⟨2, ![M, N]⟩ (Scalar.ofBits .f32 0x00000000#32))

/-- THE KERNEL'S LAYER at entry (p, q): the same function of the blocks, the bias read off the one row. -/
theorem kernelLayer_apply {D : DotDims ⟨2, ![M, K]⟩ ⟨2, ![K, N]⟩ ⟨2, ![M, N]⟩} (h : Plain D)
    (hbc : (⟨2, ![1, N]⟩ : Shape).Broadcasts ⟨2, ![M, N]⟩) (hlt : FTy.bf16.bits < FTy.f32.bits)
    (x0 x1 : FVec Ideal ⟨2, ![M, K]⟩ .f32) (x2 x3 : FVec Ideal ⟨2, ![K, N]⟩ .f32) (x4 : FVec Ideal ⟨2, ![1, N]⟩ .f32)
    (p : Fin M) (q : Fin N) :
    kernelLayer D hbc hlt x0 x1 x2 x3 x4 (ix2 p q)
      = layerAt x0 x1 x2 x3 (fun i => x4 (ix2 (0 : Fin 1) (i 0))) p q := by
  unfold kernelLayer layerAt
  rw [maximumf_apply, addf_apply, addf_apply, broadcast_apply, broadcastTo_1b_ab_apply]
  simp only [matmul]
  rw [Ideal.matmul_constant_zero_apply, Ideal.matmul_constant_zero_apply]
  have e0 := h.sum_eq (truncf .bf16 x0 hlt) (truncf .bf16 x2 hlt) p q
  have e1 := h.sum_eq (truncf .bf16 x1 hlt) (truncf .bf16 x3 hlt) p q
  rw [e0, e1]
  show max _ (Ideal.ofBits .f32 0x00000000#32) = _
  rw [Ideal.ofBits_zero_f32]
  rfl

/-- Multiplying by the quotient 1/d is dividing by d, when d is at least 1. -/
theorem mul_one_div (a d : EReal) (hd : (1 : EReal) ≤ d) : a * Ideal.div 1 d = Ideal.div a d := by
  have hne : d ≠ 0 := fun e => by rw [e] at hd; exact absurd hd (by norm_num)
  rw [Ideal.div, Ideal.div, if_neg hne, if_neg hne, one_mul]

end Cert.Sage

end
-- ==== Proof.SageRef.lean ====
/-
  The reference program's result as two layers of `Cert.Sage.layer`.

  The reference computes, per layer, the sum over incoming edges of the source nodes' feature rows (a gather by the
  source index, wrapped when negative, then a scatter-add by the destination index), divides it by the in-degree raised
  to at least one, and applies the layer: features against the self weights plus mean-aggregated neighbours against the
  neighbour weights plus the bias, positive part. The gather and the scatter-add are never opened here: they are named
  once (`aggSum`, `degMax`) as functions of the arrays they are applied to, and the kernel's program applies the same
  functions.
-/
import proofs.«150798_j34514357191329_1_alg».proof.Proof.Gen.ReferenceIdeal.Run
import proofs.«150798_j34514357191329_1_alg».proof.Proof.SageSpec

noncomputable section

namespace Cert.Sage

open Idealize.ShloMosaic Idealize.ShloMosaic.ValueIdx Idealize.ShloMosaic.TcCoe Idealize.SL.Sem
open Cert.ReferenceIdeal Cert.ReferenceIdeal.Gen

/-- The in-degree of every node (ones scatter-added by destination), raised to at least one. -/
def degMax (dst : IVec S1600000 32) : FVec Ideal S100000x1 .f32 :=
  maximumf
    (Host.scatterAdd (F := Ideal) scatter_S100000x1_S1600000x1_S1600000x1_1_0_0_1
      (broadcastInDim S100000x1 ![] bcast_S_S100000x1 (constant (F := Ideal) S_ .f32 0x00000000#32))
      (broadcastInDim S1600000x1 ![0] bcast_S1600000_S1600000x1_0 dst)
      (broadcastInDim S1600000x1 ![] bcast_S_S1600000x1 (constant (F := Ideal) S_ .f32 0x3F800000#32)))
    (broadcastInDim S100000x1 ![] bcast_S_S100000x1 (constant (F := Ideal) S_ .f32 0x3F800000#32))

/-- The sum, per destination node, of the feature rows of its incoming edges' source nodes. -/
def aggSum (x : FVec Ideal S100000x128 .f32) (src dst : IVec S1600000 32) :
    FVec Ideal S100000x128 .f32 :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The mean over incoming edges, as the reference writes it: the sum divided by the raised in-degree. -/
def meanAgg (x : FVec Ideal S100000x128 .f32) (src dst : IVec S1600000 32) :
    FVec Ideal S100000x128 .f32 :=
  Host.divf (F := Ideal) (aggSum x src dst) (broadcastInDim S100000x128 ![0, 1] bcast_S100000x1_S100000x128_0_1 (degMax dst))

/-- THE RESULT both programs compute: the second layer of the first layer's output. -/
def out (x : FVec Ideal S100000x128 .f32) (src dst : IVec S1600000 32)
    (w3 w4 : FVec Ideal S128x128 .f32) (b1 : FVec Ideal S128 .f32)
    (w6 w7 : FVec Ideal S128x64 .f32) (b2 : FVec Ideal S64 .f32) :
    FVec Ideal S100000x64 .f32 :=
  layer (layer x (meanAgg x src dst) w3 w4 b1) (meanAgg (layer x (meanAgg x src dst) w3 w4 b1) src dst) w6 w7 b2

/-- The first layer as the reference's host operations. -/
def refLayer1 (x hn : FVec Ideal S100000x128 .f32) (w3 w4 : FVec Ideal S128x128 .f32)
    (b1 : FVec Ideal S128 .f32) : FVec Ideal S100000x128 .f32 :=
  maximumf
    (addf
      (addf (Host.dotGeneral (F := Ideal) dot_S100000x128_S128x128_S100000x128_1_0_0_1_n_n none x w3)
        (Host.dotGeneral (F := Ideal) dot_S100000x128_S128x128_S100000x128_1_0_0_1_n_n none hn w4))
      (broadcastInDim S100000x128 ![0, 1] bcast_S1x128_S100000x128_0_1 (broadcastInDim S1x128 ![1] bcast_S128_S1x128_1 b1)))
    (broadcastInDim S100000x128 ![] bcast_S_S100000x128 (constant (F := Ideal) S_ .f32 0x00000000#32))

/-- The second layer as the reference's host operations. -/
def refLayer2 (x hn : FVec Ideal S100000x128 .f32) (w6 w7 : FVec Ideal S128x64 .f32)
    (b2 : FVec Ideal S64 .f32) : FVec Ideal S100000x64 .f32 :=
  maximumf
    (addf
      (addf (Host.dotGeneral (F := Ideal) dot_S100000x128_S128x64_S100000x64_1_0_0_1_n_n none x w6)
        (Host.dotGeneral (F := Ideal) dot_S100000x128_S128x64_S100000x64_1_0_0_1_n_n none hn w7))
      (broadcastInDim S100000x64 ![0, 1] bcast_S1x64_S100000x64_0_1 (broadcastInDim S1x64 ![1] bcast_S64_S1x64_1 b2)))
    (broadcastInDim S100000x64 ![] bcast_S_S100000x64 (constant (F := Ideal) S_ .f32 0x00000000#32))

theorem plain1 : Plain dot_S100000x128_S128x128_S100000x128_1_0_0_1_n_n := ⟨rfl, rfl, rfl, rfl, rfl, rfl, rfl, rfl⟩
theorem plain2 : Plain dot_S100000x128_S128x64_S100000x64_1_0_0_1_n_n := ⟨rfl, rfl, rfl, rfl, rfl, rfl, rfl, rfl⟩

/-- A bias vector broadcast to one row and then to every row reads, at (p, q), its entry q. -/
theorem biasRows128 (b1 : FVec Ideal S128 .f32) (p : Fin 100000) (q : Fin 128) :
    broadcastInDim S100000x128 ![0, 1] bcast_S1x128_S100000x128_0_1 (broadcastInDim S1x128 ![1] bcast_S128_S1x128_1 b1) (ix2 p q)
      = b1 (ix1 q) := by
  refine (broadcastInDim_apply _ bcast_S1x128_S100000x128_0_1 _ (ix2 p q) (ix2 (0 : Fin 1) q) (fun a => match a with
    | ⟨0, _⟩ => by show 0 = if (1 : Nat) = 1 then 0 else p.val; rw [if_pos rfl]
    | ⟨1, _⟩ => by show q.val = if (128 : Nat) = 1 then 0 else q.val; rw [if_neg (by decide)])).trans ?_
  exact broadcastInDim_apply _ bcast_S128_S1x128_1 b1 (ix2 (0 : Fin 1) q) (ix1 q) (fun a => match a with
    | ⟨0, _⟩ => by show q.val = if (128 : Nat) = 1 then 0 else q.val; rw [if_neg (by decide)])

theorem biasRows64 (b2 : FVec Ideal S64 .f32) (p : Fin 100000) (q : Fin 64) :
    broadcastInDim S100000x64 ![0, 1] bcast_S1x64_S100000x64_0_1 (broadcastInDim S1x64 ![1] bcast_S64_S1x64_1 b2) (ix2 p q)
      = b2 (ix1 q) := by
  refine (broadcastInDim_apply _ bcast_S1x64_S100000x64_0_1 _ (ix2 p q) (ix2 (0 : Fin 1) q) (fun a => match a with
    | ⟨0, _⟩ => by show 0 = if (1 : Nat) = 1 then 0 else p.val; rw [if_pos rfl]
    | ⟨1, _⟩ => by show q.val = if (64 : Nat) = 1 then 0 else q.val; rw [if_neg (by decide)])).trans ?_
  exact broadcastInDim_apply _ bcast_S64_S1x64_1 b2 (ix2 (0 : Fin 1) q) (ix1 q) (fun a => match a with
    | ⟨0, _⟩ => by show q.val = if (64 : Nat) = 1 then 0 else q.val; rw [if_neg (by decide)])

/-- A scalar zero broadcast to an array is zero at every entry. -/
theorem zeros_apply {s : Shape} (h : S_.BroadcastsInDim s ![]) (i : s.Idx) :
    broadcastInDim s ![] h (constant (F := Ideal) S_ .f32 0x00000000#32) i = 0 := by
  refine (broadcastInDim_apply _ h _ i ix0 (fun a => a.elim0)).trans ?_
  show Ideal.ofBits .f32 0x00000000#32 = 0
  exact Ideal.ofBits_zero_f32

theorem refLayer1_eq (x hn : FVec Ideal S100000x128 .f32) (w3 w4 : FVec Ideal S128x128 .f32)
    (b1 : FVec Ideal S128 .f32) : refLayer1 x hn w3 w4 b1 = layer x hn w3 w4 b1 := by
  unfold refLayer1
  exact hostLayer_eq plain1 x hn w3 w4 _ _ b1 (biasRows128 b1) (zeros_apply bcast_S_S100000x128)

theorem refLayer2_eq (x hn : FVec Ideal S100000x128 .f32) (w6 w7 : FVec Ideal S128x64 .f32)
    (b2 : FVec Ideal S64 .f32) : refLayer2 x hn w6 w7 b2 = layer x hn w6 w7 b2 := by
  unfold refLayer2
  exact hostLayer_eq plain2 x hn w6 w7 _ _ b2 (biasRows64 b2) (zeros_apply bcast_S_S100000x64)

set_option maxRecDepth 100000 in
/-- THE REFERENCE'S RESULT is `out` of its arguments. -/
theorem res_eq (m : (ℓ : Loc nD τ sig) → Buf (Elt Ideal) ℓ) (c : Dev nD) :
    Cert.ReferenceIdeal.Value.res_main_v49 (F := Ideal) m c
      = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := by
  unfold out
  rw [← refLayer1_eq, ← refLayer2_eq]
  unfold Cert.ReferenceIdeal.Value.res_main_v49 refLayer2 refLayer1 meanAgg aggSum degMax
  rfl

/-! ## The mean as the kernel's program writes it -/

/-- The mean over incoming edges, as the kernel's program writes it: the sum multiplied by the quotient of one by the
    raised in-degree. -/
def meanK (x : FVec Ideal S100000x128 .f32) (src dst : IVec S1600000 32) : FVec Ideal S100000x128 .f32 :=
  mulf (aggSum x src dst)
    (broadcastInDim S100000x128 ![0, 1] bcast_S100000x1_S100000x128_0_1
      (Host.divf (F := Ideal) (broadcastInDim S100000x1 ![] bcast_S_S100000x1 (constant (F := Ideal) S_ .f32 0x3F800000#32)) (degMax dst)))

/-- The word 0x3F800000 denotes one. -/
theorem one_bits : Ideal.ofBits .f32 0x3F800000#32 = 1 := by
  simp [Ideal.ofBits, Ideal.ieee, -EReal.coe_mul]; norm_num

/-- A scalar one broadcast to an array is one at every entry. -/
theorem ones_apply {s : Shape} (h : S_.BroadcastsInDim s ![]) (i : s.Idx) :
    broadcastInDim s ![] h (constant (F := Ideal) S_ .f32 0x3F800000#32) i = 1 := by
  refine (broadcastInDim_apply _ h _ i ix0 (fun a => a.elim0)).trans ?_
  show Ideal.ofBits .f32 0x3F800000#32 = 1
  exact one_bits

/-- A column broadcast along the rows reads, at (p, q), its entry p. -/
theorem col_apply (d : FVec Ideal S100000x1 .f32) (p : Fin 100000) (q : Fin 128) :
    broadcastInDim S100000x128 ![0, 1] bcast_S100000x1_S100000x128_0_1 d (ix2 p q) = d (ix2 p (0 : Fin 1)) :=
  broadcastInDim_apply _ bcast_S100000x1_S100000x128_0_1 d (ix2 p q) (ix2 p (0 : Fin 1)) (fun a => match a with
    | ⟨0, _⟩ => by show p.val = if (100000 : Nat) = 1 then 0 else p.val; rw [if_neg (by decide)]
    | ⟨1, _⟩ => by show 0 = if (1 : Nat) = 1 then 0 else q.val; rw [if_pos rfl])

/-- The host's quotient of two arrays, read at an entry. -/
theorem hostDivf_apply {s : Shape} (a b : FVec Ideal s .f32) (i : s.Idx) :
    Host.divf (F := Ideal) a b i = Ideal.div (a i) (b i) := rfl

/-- THE TWO MEANS AGREE: the raised in-degree is at least one, so multiplying by its reciprocal is dividing by it. -/
theorem meanK_eq (x : FVec Ideal S100000x128 .f32) (src dst : IVec S1600000 32) : meanK x src dst = meanAgg x src dst := by
  funext i
  obtain ⟨p, q, rfl⟩ : ∃ (p : Fin 100000) (q : Fin 128), i = ix2 p q := ⟨i 0, i 1, eq_ix2 i⟩
  unfold meanK meanAgg
  rw [mulf_apply, hostDivf_apply, col_apply, col_apply, hostDivf_apply, ones_apply]
  refine mul_one_div _ _ ?_
  unfold degMax
  rw [maximumf_apply, ones_apply]
  exact le_max_right _ _

/-- The same with the kernel's spelling written out. -/
theorem meanK_spelt_eq (x : FVec Ideal S100000x128 .f32) (src dst : IVec S1600000 32) :
    mulf (F := Ideal) (aggSum x src dst)
      (broadcastInDim S100000x128 ![0, 1] bcast_S100000x1_S100000x128_0_1
        (Host.divf (F := Ideal) (broadcastInDim S100000x1 ![] bcast_S_S100000x1 (constant (F := Ideal) S_ .f32 0x3F800000#32)) (degMax dst)))
      = meanAgg x src dst := meanK_eq x src dst

end Cert.Sage

end
-- ==== Proof.SageKRun.lean ====
/-
  The kernel program's run with its result array read.

  The program is two kernel regions among stretches of host operations. Its run from the launch to the return goes
  through buffer contents at each boundary: the launch memory, the contents after the first stretch of host operations,
  after the first region (its output array at what the region's write-backs leave, everything else as entered), after the
  second stretch, and after the second region. Every weakly fair execution terminates, the argument arrays end as
  launched, and the result array ends at the last boundary's contents of the second region's output.
-/
import proofs.«150798_j34514357191329_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- THE RUN: every weakly fair execution terminates, nothing faulting; the result array ends at the contents the
    second region's write-backs leave, and every argument array as launched. -/
theorem run_regions : θ_run defs (onTc (τ := τ) (main (F := F))) ⟨m, fun _ => 0, ρ⟩ (fun r => ∀ c : Dev nD,
      r.2.mem ((c.tc : Thread nD τ).loc main_v35) = W4 m ρ c (Proc.devRef .tc main_v35)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v35 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Run

end
-- ==== Proof.SageK0.lean ====
/-
  The first kernel region: its output array after the grid is one layer of its operand arrays.

  The region's grid has 50 points; point t stages rows 2000·t … 2000·t + 1999 of the feature array and of the
  aggregated-neighbour array, the whole of both weight matrices and the one bias row, and writes back rows
  2000·t … 2000·t + 1999 of the output. Entry (p, q) of the block the body stores depends only on row p of the two
  row blocks, column q of the weights and entry q of the bias row, so the stored block is the block of
  `Cert.Sage.layer` of the whole arrays, and since the fifty row blocks tile the output, the output array ends as
  that layer. Everything is stated for arbitrary contents `V` of the buffers when the region is entered.
-/
import proofs.«150798_j34514357191329_1_alg».proof.Proof.Gen.KernelIdeal.Frame
import proofs.«150798_j34514357191329_1_alg».proof.Proof.SageSpec
import Idealize.ShloMosaic.Lib.Pipeline.Value

noncomputable section

namespace Cert.Sage.R0

open Idealize.ShloMosaic Idealize.ShloMosaic.ValueIdx Idealize.ShloMosaic.TcCoe Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

theorem plainK : Plain dot_S2000x128_S128x128_S2000x128_1_0_0_1_n_n := ⟨rfl, rfl, rfl, rfl, rfl, rfl, rfl, rfl⟩

/-- The body's stored value is the layer of its five loaded blocks. -/
theorem pay_eq (x0 x1 : Vec Ideal S2000x128 .f32) (x2 x3 : Vec Ideal S128x128 .f32) (x4 : Vec Ideal S1x128 .f32) :
    k0_pay1 x0 x1 x2 x3 x4
      = kernelLayer dot_S2000x128_S128x128_S2000x128_1_0_0_1_n_n broadcasts_S1x128_S2000x128 bitsLt_bf16_f32 x0 x1 x2 x3 x4 := by
  unfold k0_pay1 kernelLayer
  simp only [shapeCast_self]

/-- Entry (p, q) of the stored block, when row p of the two row blocks is row r of two whole arrays and the weight
    and bias blocks are whole arrays: the layer of the whole arrays at (r, q). -/
theorem point (A0 A1 : S100000x128.Idx → EReal) (A2 A3 : S128x128.Idx → EReal) (A4 : S1x128.Idx → EReal)
    (x0 x1 : Vec Ideal S2000x128 .f32) (x2 x3 : Vec Ideal S128x128 .f32) (x4 : Vec Ideal S1x128 .f32)
    (p : Fin 2000) (q : Fin 128) (r : Fin 100000)
    (h0 : ∀ k : Fin 128, x0 (ix2 p k) = A0 (ix2 r k)) (h1 : ∀ k : Fin 128, x1 (ix2 p k) = A1 (ix2 r k))
    (h2 : ∀ k : Fin 128, x2 (ix2 k q) = A2 (ix2 k q)) (h3 : ∀ k : Fin 128, x3 (ix2 k q) = A3 (ix2 k q))
    (h4 : x4 (ix2 (0 : Fin 1) q) = A4 (ix2 (0 : Fin 1) q)) :
    k0_pay1 x0 x1 x2 x3 x4 (ix2 p q)
      = layer (M := 100000) (K := 128) (N := 128) A0 A1 A2 A3 (fun i => A4 (ix2 (0 : Fin 1) (i 0))) (ix2 r q) := by
  refine (congrFun (pay_eq x0 x1 x2 x3 x4) (ix2 p q)).trans ?_
  refine (kernelLayer_apply plainK _ _ x0 x1 x2 x3 x4 p q).trans ?_
  rw [layer_ix2]
  unfold layerAt
  have s0 : ∑ k : Fin 128, x0 (ix2 p k) * x2 (ix2 k q) = ∑ k : Fin 128, A0 (ix2 r k) * A2 (ix2 k q) :=
    Finset.sum_congr rfl fun k _ => by rw [h0 k, h2 k]
  have s1 : ∑ k : Fin 128, x1 (ix2 p k) * x3 (ix2 k q) = ∑ k : Fin 128, A1 (ix2 r k) * A3 (ix2 k q) :=
    Finset.sum_congr rfl fun k _ => by rw [h1 k, h3 k]
  rw [s0, s1]
  show max (_ + x4 (ix2 (0 : Fin 1) q)) 0 = max (_ + A4 (ix2 (0 : Fin 1) q)) 0
  rw [h4]

/-- The printed index maps over the grid: the row blocks and the output move with the point, the weights and the
    bias stay at block (0, 0). -/
theorem idx : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem t_lt (t : Fin cfg0.N) : t.val < 50 := Nat.lt_of_lt_of_eq t.isLt (show cfg0.N = 50 from N_0)

/-- Row p of the feature block at point t is row 2000·t + p of the feature array. -/
theorem blk_0 (c : Dev nD) (t : Fin cfg0.N) (p : Fin 2000) (k : Fin 128) (r : Fin 100000) (hr : r.val = t.val * 2000 + p.val) :
    (iblk0 V c 0 t : Vec Ideal S2000x128 .f32) (ix2 p k) = (V c main_arg0 : S100000x128.Idx → EReal) (ix2 r k) := by
  obtain ⟨e0, e1, -⟩ := idx t
  unfold iblk0
  rw [View.read_apply]
  show V c main_arg0 _ = V c main_arg0 _
  refine congrArg (V c main_arg0) (funext fun a => Fin.ext ?_)
  match a with
  | ⟨0, _⟩ => show win0_0.index t 0 * 2000 + 1 * p.val = r.val; rw [e0, hr]; omega
  | ⟨1, _⟩ => show win0_0.index t 1 * 128 + 1 * k.val = k.val; rw [e1]; omega

/-- Row p of the aggregated-neighbour block at point t is row 2000·t + p of that array. -/
theorem blk_1 (c : Dev nD) (t : Fin cfg0.N) (p : Fin 2000) (k : Fin 128) (r : Fin 100000) (hr : r.val = t.val * 2000 + p.val) :
    (iblk0 V c 1 t : Vec Ideal S2000x128 .f32) (ix2 p k) = (V c main_v19 : S100000x128.Idx → EReal) (ix2 r k) := by
  obtain ⟨-, -, e0, e1, -⟩ := idx t
  unfold iblk0
  rw [View.read_apply]
  show V c main_v19 _ = V c main_v19 _
  refine congrArg (V c main_v19) (funext fun a => Fin.ext ?_)
  match a with
  | ⟨0, _⟩ => show win0_1.index t 0 * 2000 + 1 * p.val = r.val; rw [e0, hr]; omega
  | ⟨1, _⟩ => show win0_1.index t 1 * 128 + 1 * k.val = k.val; rw [e1]; omega

/-- The self-weight block at every point is the whole matrix. -/
theorem blk_2 (c : Dev nD) (t : Fin cfg0.N) (k : Fin 128) (q : Fin 128) :
    (iblk0 V c 2 t : Vec Ideal S128x128 .f32) (ix2 k q) = (V c main_arg3 : S128x128.Idx → EReal) (ix2 k q) := by
  obtain ⟨-, -, -, -, e0, e1, -⟩ := idx t
  unfold iblk0
  rw [View.read_apply]
  show V c main_arg3 _ = V c main_arg3 _
  refine congrArg (V c main_arg3) (funext fun a => Fin.ext ?_)
  match a with
  | ⟨0, _⟩ => show win0_2.index t 0 * 128 + 1 * k.val = k.val; rw [e0]; omega
  | ⟨1, _⟩ => show win0_2.index t 1 * 128 + 1 * q.val = q.val; rw [e1]; omega

/-- The neighbour-weight block at every point is the whole matrix. -/
theorem blk_3 (c : Dev nD) (t : Fin cfg0.N) (k : Fin 128) (q : Fin 128) :
    (iblk0 V c 3 t : Vec Ideal S128x128 .f32) (ix2 k q) = (V c main_arg4 : S128x128.Idx → EReal) (ix2 k q) := by
  obtain ⟨-, -, -, -, -, -, e0, e1, -⟩ := idx t
  unfold iblk0
  rw [View.read_apply]
  show V c main_arg4 _ = V c main_arg4 _
  refine congrArg (V c main_arg4) (funext fun a => Fin.ext ?_)
  match a with
  | ⟨0, _⟩ => show win0_3.index t 0 * 128 + 1 * k.val = k.val; rw [e0]; omega
  | ⟨1, _⟩ => show win0_3.index t 1 * 128 + 1 * q.val = q.val; rw [e1]; omega

/-- The bias block at every point is the whole bias row. -/
theorem blk_4 (c : Dev nD) (t : Fin cfg0.N) (q : Fin 128) :
    (iblk0 V c 4 t : Vec Ideal S1x128 .f32) (ix2 (0 : Fin 1) q) = (V c main_v20 : S1x128.Idx → EReal) (ix2 (0 : Fin 1) q) := by
  obtain ⟨-, -, -, -, -, -, -, -, e0, e1, -⟩ := idx t
  unfold iblk0
  rw [View.read_apply]
  show V c main_v20 _ = V c main_v20 _
  refine congrArg (V c main_v20) (funext fun a => Fin.ext ?_)
  match a with
  | ⟨0, _⟩ => show win0_4.index t 0 * 1 + 1 * 0 = 0; rw [e0]
  | ⟨1, _⟩ => show win0_4.index t 1 * 128 + 1 * q.val = q.val; rw [e1]; omega

/-- What the output array ends holding: the layer of the region's operand arrays as entered. -/
def G (c : Dev nD) : S100000x128.Idx → EReal :=
  layer (M := 100000) (K := 128) (N := 128) (V c main_arg0 : S100000x128.Idx → EReal) (V c main_v19 : S100000x128.Idx → EReal)
    (V c main_arg3 : S128x128.Idx → EReal) (V c main_arg4 : S128x128.Idx → EReal)
    (fun i => (V c main_v20 : S1x128.Idx → EReal) (ix2 (0 : Fin 1) (i 0)))

/-- WHAT POINT t WRITES BACK is block t of `G`. -/
theorem flushed_eq (c : Dev nD) (t : Fin cfg0.N) :
    (dat0 V c).flushed 5 t = ((cfg0.win 5).blk t).view.read (Elt Ideal) (G V c) := by
  show (cfg0.win 5).cut (grid0.coords t) ((dat0 V c).after 5 t) = _
  rw [after0_5]
  unfold out0_5
  rw [View.canon_unit_zero hz]
  simp only [View.ld_unit_zero (S := S2000x128) hz, View.ld_unit_zero (S := S128x128) hz, View.ld_unit_zero (S := S1x128) hz]
  funext j
  obtain ⟨-, -, -, -, -, -, -, -, -, -, e0, e1⟩ := idx t
  have ht := t_lt t
  have hj0 : (j 0).val < 2000 := (j 0).isLt
  have hj1 : (j 1).val < 128 := (j 1).isLt
  have hj : j = ix2 (⟨(j 0).val, hj0⟩ : Fin 2000) (⟨(j 1).val, hj1⟩ : Fin 128) := funext fun a => by
    match a with
    | ⟨0, _⟩ => rfl
    | ⟨1, _⟩ => rfl
  have hemb : ((cfg0.win 5).blk t).view.emb j
      = ix2 (⟨t.val * 2000 + (j 0).val, by omega⟩ : Fin 100000) (⟨(j 1).val, hj1⟩ : Fin 128) := funext fun a => Fin.ext (by
    match a with
    | ⟨0, _⟩ => show win0_5.index t 0 * 2000 + 1 * (j 0).val = t.val * 2000 + (j 0).val; rw [e0]; omega
    | ⟨1, _⟩ => show win0_5.index t 1 * 128 + 1 * (j 1).val = (j 1).val; rw [e1]; omega)
  show k0_pay1 (iblk0 V c 0 t) (iblk0 V c 1 t) (iblk0 V c 2 t) (iblk0 V c 3 t) (iblk0 V c 4 t) j
    = G V c (((cfg0.win 5).blk t).view.emb j)
  rw [hemb]
  refine (congrArg (k0_pay1 (iblk0 V c 0 t) (iblk0 V c 1 t) (iblk0 V c 2 t) (iblk0 V c 3 t) (iblk0 V c 4 t)) hj).trans ?_
  exact point (V c main_arg0) (V c main_v19) (V c main_arg3) (V c main_arg4) (V c main_v20)
    (iblk0 V c 0 t) (iblk0 V c 1 t) (iblk0 V c 2 t) (iblk0 V c 3 t) (iblk0 V c 4 t)
    ⟨(j 0).val, hj0⟩ ⟨(j 1).val, hj1⟩ ⟨t.val * 2000 + (j 0).val, by omega⟩
    (fun k => blk_0 V c t _ k _ rfl) (fun k => blk_1 V c t _ k _ rfl)
    (fun k => blk_2 V c t k _) (fun k => blk_3 V c t k _) (blk_4 V c t _)

/-- An index of the output array is in point t's block iff each coordinate is in the block's range on its axis. -/
theorem mem_blk (t : Fin cfg0.N) (i : S100000x128.Idx) :
    i ∈ ((cfg0.win 5).blk t).view.set ↔ ∀ a : Fin 2, win0_5.index t a * S2000x128.size a ≤ (i a).val ∧ (i a).val < win0_5.index t a * S2000x128.size a + S2000x128.size a := by
  show i ∈ ((View.whole main_v21).slice (win0_5.rect t)).set ↔ _
  rw [View.set_slice_whole, Rect.mem_set_unit]
  exact Iff.rfl

/-- Every row of the output is in the block of the point its row number divided by 2000 names. -/
theorem cover (i : S100000x128.Idx) : ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 50 := N_0
  have hlt : (i 0).val / 2000 < cfg0.N := by rw [hN]; omega
  obtain ⟨-, -, -, -, -, -, -, -, -, -, e0, e1⟩ := idx ⟨(i 0).val / 2000, hlt⟩
  refine ⟨⟨(i 0).val / 2000, hlt⟩, flush0_5 _, ?_⟩
  rw [mem_blk]
  intro a
  match a with
  | ⟨0, _⟩ =>
    show win0_5.index ⟨(i 0).val / 2000, hlt⟩ 0 * 2000 ≤ (i 0).val ∧ (i 0).val < win0_5.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win0_5.index ⟨(i 0).val / 2000, hlt⟩ 1 * 128 ≤ (i 1).val ∧ (i 1).val < win0_5.index ⟨(i 0).val / 2000, hlt⟩ 1 * 128 + 128
    rw [e1]
    omega

/-- THE OUTPUT ARRAY after the region is `G`. -/
theorem final (c : Dev nD) : (dat0 V c).arrAt 5 cfg0.N = G V c :=
  (dat0 V c).arrAt_eq_of_cover 5 (G V c) (fun t _ => flushed_eq V c t) (fun i => cover i)

end Cert.Sage.R0

end
-- ==== Proof.SageK1.lean ====
/-
  The second kernel region: its output array after the grid is one layer of its operand arrays.

  The region's grid has 50 points; point t stages rows 2000·t … 2000·t + 1999 of the first layer's output and of
  its aggregated-neighbour array, the whole of both weight matrices and the one bias row, and writes back rows
  2000·t … 2000·t + 1999 of the output. Entry (p, q) of the block the body stores depends only on row p of the two
  row blocks, column q of the weights and entry q of the bias row, so the stored block is the block of
  `Cert.Sage.layer` of the whole arrays, and since the fifty row blocks tile the output, the output array ends as
  that layer. Everything is stated for arbitrary contents `V` of the buffers when the region is entered.
-/
import proofs.«150798_j34514357191329_1_alg».proof.Proof.Gen.KernelIdeal.Frame
import proofs.«150798_j34514357191329_1_alg».proof.Proof.SageSpec
import Idealize.ShloMosaic.Lib.Pipeline.Value

noncomputable section

namespace Cert.Sage.R1

open Idealize.ShloMosaic Idealize.ShloMosaic.ValueIdx Idealize.ShloMosaic.TcCoe Idealize.SL.Sem
open Idealize.ShloMosaic.Pipeline (Dat)
open Cert.KernelIdeal Cert.KernelIdeal.Gen Cert.Sage

variable (V : (c : Dev nD) → (b : Ref sig .tc) → Buf (Elt Ideal) ((c : Thread nD τ).loc b))

theorem hz : (![0, 0] : Fin 2 → Nat) = fun _ => 0 := funext fun a => by fin_cases a <;> rfl

theorem plainK : Plain dot_S2000x128_S128x64_S2000x64_1_0_0_1_n_n := ⟨rfl, rfl, rfl, rfl, rfl, rfl, rfl, rfl⟩

/-- The body's stored value is the layer of its five loaded blocks. -/
theorem pay_eq (x0 x1 : Vec Ideal S2000x128 .f32) (x2 x3 : Vec Ideal S128x64 .f32) (x4 : Vec Ideal S1x64 .f32) :
    k1_pay1 x0 x1 x2 x3 x4
      = kernelLayer dot_S2000x128_S128x64_S2000x64_1_0_0_1_n_n broadcasts_S1x64_S2000x64 bitsLt_bf16_f32 x0 x1 x2 x3 x4 := by
  unfold k1_pay1 kernelLayer
  simp only [shapeCast_self]

/-- Entry (p, q) of the stored block, when row p of the two row blocks is row r of two whole arrays and the weight
    and bias blocks are whole arrays: the layer of the whole arrays at (r, q). -/
theorem point (A0 A1 : S100000x128.Idx → EReal) (A2 A3 : S128x64.Idx → EReal) (A4 : S1x64.Idx → EReal)
    (x0 x1 : Vec Ideal S2000x128 .f32) (x2 x3 : Vec Ideal S128x64 .f32) (x4 : Vec Ideal S1x64 .f32)
    (p : Fin 2000) (q : Fin 64) (r : Fin 100000)
    (h0 : ∀ k : Fin 128, x0 (ix2 p k) = A0 (ix2 r k)) (h1 : ∀ k : Fin 128, x1 (ix2 p k) = A1 (ix2 r k))
    (h2 : ∀ k : Fin 128, x2 (ix2 k q) = A2 (ix2 k q)) (h3 : ∀ k : Fin 128, x3 (ix2 k q) = A3 (ix2 k q))
    (h4 : x4 (ix2 (0 : Fin 1) q) = A4 (ix2 (0 : Fin 1) q)) :
    k1_pay1 x0 x1 x2 x3 x4 (ix2 p q)
      = layer (M := 100000) (K := 128) (N := 64) A0 A1 A2 A3 (fun i => A4 (ix2 (0 : Fin 1) (i 0))) (ix2 r q) := by
  refine (congrFun (pay_eq x0 x1 x2 x3 x4) (ix2 p q)).trans ?_
  refine (kernelLayer_apply plainK _ _ x0 x1 x2 x3 x4 p q).trans ?_
  rw [layer_ix2]
  unfold layerAt
  have s0 : ∑ k : Fin 128, x0 (ix2 p k) * x2 (ix2 k q) = ∑ k : Fin 128, A0 (ix2 r k) * A2 (ix2 k q) :=
    Finset.sum_congr rfl fun k _ => by rw [h0 k, h2 k]
  have s1 : ∑ k : Fin 128, x1 (ix2 p k) * x3 (ix2 k q) = ∑ k : Fin 128, A1 (ix2 r k) * A3 (ix2 k q) :=
    Finset.sum_congr rfl fun k _ => by rw [h1 k, h3 k]
  rw [s0, s1]
  show max (_ + x4 (ix2 (0 : Fin 1) q)) 0 = max (_ + A4 (ix2 (0 : Fin 1) q)) 0
  rw [h4]

/-- The printed index maps over the grid: the row blocks and the output move with the point, the weights and the
    bias stay at block (0, 0). -/
theorem idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem t_lt (t : Fin cfg1.N) : t.val < 50 := Nat.lt_of_lt_of_eq t.isLt (show cfg1.N = 50 from N_1)

/-- Row p of the feature block at point t is row 2000·t + p of the feature array. -/
theorem blk_0 (c : Dev nD) (t : Fin cfg1.N) (p : Fin 2000) (k : Fin 128) (r : Fin 100000) (hr : r.val = t.val * 2000 + p.val) :
    (iblk1 V c 0 t : Vec Ideal S2000x128 .f32) (ix2 p k) = (V c main_v21 : S100000x128.Idx → EReal) (ix2 r k) := by
  obtain ⟨e0, e1, -⟩ := idx t
  unfold iblk1
  rw [View.read_apply]
  show V c main_v21 _ = V c main_v21 _
  refine congrArg (V c main_v21) (funext fun a => Fin.ext ?_)
  match a with
  | ⟨0, _⟩ => show win1_0.index t 0 * 2000 + 1 * p.val = r.val; rw [e0, hr]; omega
  | ⟨1, _⟩ => show win1_0.index t 1 * 128 + 1 * k.val = k.val; rw [e1]; omega

/-- Row p of the aggregated-neighbour block at point t is row 2000·t + p of that array. -/
theorem blk_1 (c : Dev nD) (t : Fin cfg1.N) (p : Fin 2000) (k : Fin 128) (r : Fin 100000) (hr : r.val = t.val * 2000 + p.val) :
    (iblk1 V c 1 t : Vec Ideal S2000x128 .f32) (ix2 p k) = (V c main_v33 : S100000x128.Idx → EReal) (ix2 r k) := by
  obtain ⟨-, -, e0, e1, -⟩ := idx t
  unfold iblk1
  rw [View.read_apply]
  show V c main_v33 _ = V c main_v33 _
  refine congrArg (V c main_v33) (funext fun a => Fin.ext ?_)
  match a with
  | ⟨0, _⟩ => show win1_1.index t 0 * 2000 + 1 * p.val = r.val; rw [e0, hr]; omega
  | ⟨1, _⟩ => show win1_1.index t 1 * 128 + 1 * k.val = k.val; rw [e1]; omega

/-- The self-weight block at every point is the whole matrix. -/
theorem blk_2 (c : Dev nD) (t : Fin cfg1.N) (k : Fin 128) (q : Fin 64) :
    (iblk1 V c 2 t : Vec Ideal S128x64 .f32) (ix2 k q) = (V c main_arg6 : S128x64.Idx → EReal) (ix2 k q) := by
  obtain ⟨-, -, -, -, e0, e1, -⟩ := idx t
  unfold iblk1
  rw [View.read_apply]
  show V c main_arg6 _ = V c main_arg6 _
  refine congrArg (V c main_arg6) (funext fun a => Fin.ext ?_)
  match a with
  | ⟨0, _⟩ => show win1_2.index t 0 * 128 + 1 * k.val = k.val; rw [e0]; omega
  | ⟨1, _⟩ => show win1_2.index t 1 * 64 + 1 * q.val = q.val; rw [e1]; omega

/-- The neighbour-weight block at every point is the whole matrix. -/
theorem blk_3 (c : Dev nD) (t : Fin cfg1.N) (k : Fin 128) (q : Fin 64) :
    (iblk1 V c 3 t : Vec Ideal S128x64 .f32) (ix2 k q) = (V c main_arg7 : S128x64.Idx → EReal) (ix2 k q) := by
  obtain ⟨-, -, -, -, -, -, e0, e1, -⟩ := idx t
  unfold iblk1
  rw [View.read_apply]
  show V c main_arg7 _ = V c main_arg7 _
  refine congrArg (V c main_arg7) (funext fun a => Fin.ext ?_)
  match a with
  | ⟨0, _⟩ => show win1_3.index t 0 * 128 + 1 * k.val = k.val; rw [e0]; omega
  | ⟨1, _⟩ => show win1_3.index t 1 * 64 + 1 * q.val = q.val; rw [e1]; omega

/-- The bias block at every point is the whole bias row. -/
theorem blk_4 (c : Dev nD) (t : Fin cfg1.N) (q : Fin 64) :
    (iblk1 V c 4 t : Vec Ideal S1x64 .f32) (ix2 (0 : Fin 1) q) = (V c main_v34 : S1x64.Idx → EReal) (ix2 (0 : Fin 1) q) := by
  obtain ⟨-, -, -, -, -, -, -, -, e0, e1, -⟩ := idx t
  unfold iblk1
  rw [View.read_apply]
  show V c main_v34 _ = V c main_v34 _
  refine congrArg (V c main_v34) (funext fun a => Fin.ext ?_)
  match a with
  | ⟨0, _⟩ => show win1_4.index t 0 * 1 + 1 * 0 = 0; rw [e0]
  | ⟨1, _⟩ => show win1_4.index t 1 * 64 + 1 * q.val = q.val; rw [e1]; omega

/-- What the output array ends holding: the layer of the region's operand arrays as entered. -/
def G (c : Dev nD) : S100000x64.Idx → EReal :=
  layer (M := 100000) (K := 128) (N := 64) (V c main_v21 : S100000x128.Idx → EReal) (V c main_v33 : S100000x128.Idx → EReal)
    (V c main_arg6 : S128x64.Idx → EReal) (V c main_arg7 : S128x64.Idx → EReal)
    (fun i => (V c main_v34 : S1x64.Idx → EReal) (ix2 (0 : Fin 1) (i 0)))

/-- WHAT POINT t WRITES BACK is block t of `G`. -/
theorem flushed_eq (c : Dev nD) (t : Fin cfg1.N) :
    (dat1 V c).flushed 5 t = ((cfg1.win 5).blk t).view.read (Elt Ideal) (G V c) := by
  show (cfg1.win 5).cut (grid1.coords t) ((dat1 V c).after 5 t) = _
  rw [after1_5]
  unfold out1_5
  rw [View.canon_unit_zero hz]
  simp only [View.ld_unit_zero (S := S2000x128) hz, View.ld_unit_zero (S := S128x64) hz, View.ld_unit_zero (S := S1x64) hz]
  funext j
  obtain ⟨-, -, -, -, -, -, -, -, -, -, e0, e1⟩ := idx t
  have ht := t_lt t
  have hj0 : (j 0).val < 2000 := (j 0).isLt
  have hj1 : (j 1).val < 64 := (j 1).isLt
  have hj : j = ix2 (⟨(j 0).val, hj0⟩ : Fin 2000) (⟨(j 1).val, hj1⟩ : Fin 64) := funext fun a => by
    match a with
    | ⟨0, _⟩ => rfl
    | ⟨1, _⟩ => rfl
  have hemb : ((cfg1.win 5).blk t).view.emb j
      = ix2 (⟨t.val * 2000 + (j 0).val, by omega⟩ : Fin 100000) (⟨(j 1).val, hj1⟩ : Fin 64) := funext fun a => Fin.ext (by
    match a with
    | ⟨0, _⟩ => show win1_5.index t 0 * 2000 + 1 * (j 0).val = t.val * 2000 + (j 0).val; rw [e0]; omega
    | ⟨1, _⟩ => show win1_5.index t 1 * 64 + 1 * (j 1).val = (j 1).val; rw [e1]; omega)
  show k1_pay1 (iblk1 V c 0 t) (iblk1 V c 1 t) (iblk1 V c 2 t) (iblk1 V c 3 t) (iblk1 V c 4 t) j
    = G V c (((cfg1.win 5).blk t).view.emb j)
  rw [hemb]
  refine (congrArg (k1_pay1 (iblk1 V c 0 t) (iblk1 V c 1 t) (iblk1 V c 2 t) (iblk1 V c 3 t) (iblk1 V c 4 t)) hj).trans ?_
  exact point (V c main_v21) (V c main_v33) (V c main_arg6) (V c main_arg7) (V c main_v34)
    (iblk1 V c 0 t) (iblk1 V c 1 t) (iblk1 V c 2 t) (iblk1 V c 3 t) (iblk1 V c 4 t)
    ⟨(j 0).val, hj0⟩ ⟨(j 1).val, hj1⟩ ⟨t.val * 2000 + (j 0).val, by omega⟩
    (fun k => blk_0 V c t _ k _ rfl) (fun k => blk_1 V c t _ k _ rfl)
    (fun k => blk_2 V c t k _) (fun k => blk_3 V c t k _) (blk_4 V c t _)

/-- An index of the output array is in point t's block iff each coordinate is in the block's range on its axis. -/
theorem mem_blk (t : Fin cfg1.N) (i : S100000x64.Idx) :
    i ∈ ((cfg1.win 5).blk t).view.set ↔ ∀ a : Fin 2, win1_5.index t a * S2000x64.size a ≤ (i a).val ∧ (i a).val < win1_5.index t a * S2000x64.size a + S2000x64.size a := by
  show i ∈ ((View.whole main_v35).slice (win1_5.rect t)).set ↔ _
  rw [View.set_slice_whole, Rect.mem_set_unit]
  exact Iff.rfl

/-- Every row of the output is in the block of the point its row number divided by 2000 names. -/
theorem cover (i : S100000x64.Idx) : ∃ t : Fin cfg1.N, (cfg1.win 5).flush t = true ∧ i ∈ ((cfg1.win 5).blk t).view.set := by
  have hi0 : (i 0).val < 100000 := (i 0).isLt
  have hi1 : (i 1).val < 64 := (i 1).isLt
  have hN : cfg1.N = 50 := N_1
  have hlt : (i 0).val / 2000 < cfg1.N := by rw [hN]; omega
  obtain ⟨-, -, -, -, -, -, -, -, -, -, e0, e1⟩ := idx ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ 0 * 2000 ≤ (i 0).val ∧ (i 0).val < win1_5.index ⟨(i 0).val / 2000, hlt⟩ 0 * 2000 + 2000
    rw [e0]
    show (i 0).val / 2000 * 2000 ≤ (i 0).val ∧ (i 0).val < (i 0).val / 2000 * 2000 + 2000
    omega
  | ⟨1, _⟩ =>
    show win1_5.index ⟨(i 0).val / 2000, hlt⟩ 1 * 64 ≤ (i 1).val ∧ (i 1).val < win1_5.index ⟨(i 0).val / 2000, hlt⟩ 1 * 64 + 64
    rw [e1]
    omega

/-- THE OUTPUT ARRAY after the region is `G`. -/
theorem final (c : Dev nD) : (dat1 V c).arrAt 5 cfg1.N = G V c :=
  (dat1 V c).arrAt_eq_of_cover 5 (G V c) (fun t _ => flushed_eq V c t) (fun i => cover i)

end Cert.Sage.R1

end
-- ==== Proof.SageKH0.lean ====
/-
  The kernel program's buffers when its first region is entered.

  Before the first region the program computes, on the host, the in-degree raised to at least one and its reciprocal,
  the sum over incoming edges of the source nodes' feature rows, their product (the mean-aggregated neighbour
  features), and the bias as one row. Read back through the run of those operations: the feature array and the two
  weight matrices are the launch memory's, the aggregated array is `Cert.Sage.meanK` of the arguments, and the bias row
  is the bias vector recast to one row.
-/
import proofs.«150798_j34514357191329_1_alg».proof.Proof.Gen.KernelIdeal.Frame
import proofs.«150798_j34514357191329_1_alg».proof.Proof.SageRef
import Idealize.ShloMosaic.Lib.StableHlo.Run

noncomputable section

namespace Cert.Sage.H0

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem V1_arg0 (c : Dev nD) : V1 m ρ c main_arg0 = m ((c : Thread nD τ).loc main_arg0) := by
  unfold V1 W1 hostOps0
  after_results_simp <;> rfl

theorem V1_arg1 (c : Dev nD) : V1 m ρ c main_arg1 = m ((c : Thread nD τ).loc main_arg1) := by
  unfold V1 W1 hostOps0
  after_results_simp <;> rfl

theorem V1_arg2 (c : Dev nD) : V1 m ρ c main_arg2 = m ((c : Thread nD τ).loc main_arg2) := by
  unfold V1 W1 hostOps0
  after_results_simp <;> rfl

theorem V1_arg3 (c : Dev nD) : V1 m ρ c main_arg3 = m ((c : Thread nD τ).loc main_arg3) := by
  unfold V1 W1 hostOps0
  after_results_simp <;> rfl

theorem V1_arg4 (c : Dev nD) : V1 m ρ c main_arg4 = m ((c : Thread nD τ).loc main_arg4) := by
  unfold V1 W1 hostOps0
  after_results_simp <;> rfl

theorem V1_arg6 (c : Dev nD) : V1 m ρ c main_arg6 = m ((c : Thread nD τ).loc main_arg6) := by
  unfold V1 W1 hostOps0
  after_results_simp <;> rfl

theorem V1_arg7 (c : Dev nD) : V1 m ρ c main_arg7 = m ((c : Thread nD τ).loc main_arg7) := by
  unfold V1 W1 hostOps0
  after_results_simp <;> rfl

theorem V1_arg8 (c : Dev nD) : V1 m ρ c main_arg8 = m ((c : Thread nD τ).loc main_arg8) := by
  unfold V1 W1 hostOps0
  after_results_simp <;> rfl

/-- The aggregated-neighbour array the first region reads. -/
theorem V1_v19 (c : Dev nD) : (V1 m ρ c main_v19 : S100000x128.Idx → EReal)
    = meanK (m ((c : Thread nD τ).loc main_arg0)) (m ((c : Thread nD τ).loc main_arg1)) (m ((c : Thread nD τ).loc main_arg2)) := by
  unfold V1 W1 hostOps0
  after_results_simp <;> rfl

/-- The reciprocal of the raised in-degree, computed once before the first region and read again after it. -/
theorem V1_v7 (c : Dev nD) : (V1 m ρ c main_v7 : S100000x1.Idx → EReal)
    = Host.divf (F := Ideal) (broadcastInDim S100000x1 ![] bcast_S_S100000x1 (constant (F := Ideal) S_ .f32 0x3F800000#32))
        (degMax (m ((c : Thread nD τ).loc main_arg2))) := by
  unfold V1 W1 hostOps0
  after_results_simp <;> rfl

/-- The bias row the first region reads. -/
theorem V1_v20 (c : Dev nD) : (V1 m ρ c main_v20 : S1x128.Idx → EReal)
    = shapeCast S1x128 (m ((c : Thread nD τ).loc main_arg5) : S128.Idx → EReal) shapeCasts_S128_S1x128 := by
  unfold V1 W1 hostOps0
  after_results_simp <;> rfl

/-- The seven buffers the second stretch of host operations and the second region read besides the first region's
    output keep, across the first region, what they held when it was entered: the region writes only its output. -/
theorem W2_arg1 (c : Dev nD) : W2 m ρ c (Proc.devRef .tc main_arg1) = m ((c : Thread nD τ).loc main_arg1) :=
  (W2_of_ne m ρ c main_arg1 (by decide)).trans (V1_arg1 m ρ c)
theorem W2_arg2 (c : Dev nD) : W2 m ρ c (Proc.devRef .tc main_arg2) = m ((c : Thread nD τ).loc main_arg2) :=
  (W2_of_ne m ρ c main_arg2 (by decide)).trans (V1_arg2 m ρ c)
theorem W2_arg6 (c : Dev nD) : W2 m ρ c (Proc.devRef .tc main_arg6) = m ((c : Thread nD τ).loc main_arg6) :=
  (W2_of_ne m ρ c main_arg6 (by decide)).trans (V1_arg6 m ρ c)
theorem W2_arg7 (c : Dev nD) : W2 m ρ c (Proc.devRef .tc main_arg7) = m ((c : Thread nD τ).loc main_arg7) :=
  (W2_of_ne m ρ c main_arg7 (by decide)).trans (V1_arg7 m ρ c)
theorem W2_v7 (c : Dev nD) : (W2 m ρ c (Proc.devRef .tc main_v7) : S100000x1.Idx → EReal)
    = Host.divf (F := Ideal) (broadcastInDim S100000x1 ![] bcast_S_S100000x1 (constant (F := Ideal) S_ .f32 0x3F800000#32))
        (degMax (m ((c : Thread nD τ).loc main_arg2))) :=
  (W2_of_ne m ρ c main_v7 (by decide)).trans (V1_v7 m ρ c)
theorem W2_arg8 (c : Dev nD) : W2 m ρ c (Proc.devRef .tc main_arg8) = m ((c : Thread nD τ).loc main_arg8) :=
  (W2_of_ne m ρ c main_arg8 (by decide)).trans (V1_arg8 m ρ c)

end Cert.Sage.H0

end
-- ==== Proof.SageKH1.lean ====
/-
  The kernel program's buffers when its second region is entered.

  Between the regions the program computes, on the host, the sum over incoming edges of the source nodes' rows of the
  first region's output, its product with the reciprocal of the raised in-degree (computed before the first region),
  and the second bias as one row. Read back through the run of those operations from the contents the first region
  left: the first region's output and the two weight matrices are as the first region left them, the aggregated array
  is the product of the edge sum with the broadcast reciprocal, and the bias row is the bias vector recast to one row.
-/
import proofs.«150798_j34514357191329_1_alg».proof.Proof.Gen.KernelIdeal.Frame
import proofs.«150798_j34514357191329_1_alg».proof.Proof.SageRef
import Idealize.ShloMosaic.Lib.StableHlo.Run

noncomputable section

namespace Cert.Sage.H1

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

theorem V3_v21 (c : Dev nD) : V3 m ρ c main_v21 = W2 m ρ c (Proc.devRef .tc main_v21) := by
  unfold V3 W3 hostOps1
  after_results_simp <;> rfl

theorem V3_arg6 (c : Dev nD) : V3 m ρ c main_arg6 = W2 m ρ c (Proc.devRef .tc main_arg6) := by
  unfold V3 W3 hostOps1
  after_results_simp <;> rfl

theorem V3_arg7 (c : Dev nD) : V3 m ρ c main_arg7 = W2 m ρ c (Proc.devRef .tc main_arg7) := by
  unfold V3 W3 hostOps1
  after_results_simp <;> rfl

/-- The aggregated-neighbour array the second region reads, over the contents the first region left: the edge sum
    times the broadcast reciprocal of the raised in-degree, the latter still as the first stretch computed it. -/
theorem V3_v33 (c : Dev nD) : (V3 m ρ c main_v33 : S100000x128.Idx → EReal)
    = mulf (F := Ideal)
        (aggSum (W2 m ρ c (Proc.devRef .tc main_v21)) (W2 m ρ c (Proc.devRef .tc main_arg1)) (W2 m ρ c (Proc.devRef .tc main_arg2)))
        (broadcastInDim S100000x128 ![0, 1] bcast_S100000x1_S100000x128_0_1 (W2 m ρ c (Proc.devRef .tc main_v7))) := by
  unfold V3 W3 hostOps1
  after_results_simp <;> rfl

/-- The bias row the second region reads. -/
theorem V3_v34 (c : Dev nD) : (V3 m ρ c main_v34 : S1x64.Idx → EReal)
    = shapeCast S1x64 (W2 m ρ c (Proc.devRef .tc main_arg8) : S64.Idx → EReal) shapeCasts_S64_S1x64 := by
  unfold V3 W3 hostOps1
  after_results_simp <;> rfl

end Cert.Sage.H1

end
-- ==== Proof.SageKOut.lean ====
/-
  The kernel program's result array is `Cert.Sage.out` of its arguments.

  The second region's output array ends as the layer of the arrays the region found (the region module), those arrays
  are the first region's output, its mean-aggregated neighbours in the kernel's spelling, the second weights and the
  second bias row (the host modules), and the first region's output is the layer of the features, their mean-aggregated
  neighbours, the first weights and the first bias row. The kernel's spelling of the mean (multiply by the reciprocal of
  the raised in-degree) is the reference's (divide by it), and a bias vector recast to one row and read at its one row
  is the vector.
-/
import proofs.«150798_j34514357191329_1_alg».proof.Proof.Gen.KernelIdeal.Frame
import proofs.«150798_j34514357191329_1_alg».proof.Proof.SageRef
import proofs.«150798_j34514357191329_1_alg».proof.Proof.SageK0
import proofs.«150798_j34514357191329_1_alg».proof.Proof.SageK1
import proofs.«150798_j34514357191329_1_alg».proof.Proof.SageKH0
import proofs.«150798_j34514357191329_1_alg».proof.Proof.SageKH1
import Idealize.ShloMosaic.Lib.ValueLayout

noncomputable section

namespace Cert.Sage.KOut

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ) (ρ : Dev nD → PrngReg)

/-- A vector recast to one row, read at that row, is the vector. -/
theorem biasRow {a : Nat} (b : (⟨1, ![a]⟩ : Shape).Idx → EReal) (h : (⟨1, ![a]⟩ : Shape).ShapeCasts ⟨2, ![1, a]⟩) :
    (fun i : (⟨1, ![a]⟩ : Shape).Idx => shapeCast ⟨2, ![1, a]⟩ b h (ix2 (0 : Fin 1) (i 0))) = b := by
  funext i
  rw [shapeCast_a_1a_apply b h 0 (i 0)]
  exact congrArg b (eq_ix1 i).symm

/-- The first region's output: the first layer of the arguments. -/
theorem G0_eq (c : Dev nD) :
    R0.G (V1 m ρ) c
      = layer (M := 100000) (K := 128) (N := 128) (m ((c : Thread nD τ).loc main_arg0))
          (meanAgg (m ((c : Thread nD τ).loc main_arg0)) (m ((c : Thread nD τ).loc main_arg1)) (m ((c : Thread nD τ).loc main_arg2)))
          (m ((c : Thread nD τ).loc main_arg3)) (m ((c : Thread nD τ).loc main_arg4)) (m ((c : Thread nD τ).loc main_arg5)) := by
  unfold R0.G
  rw [H0.V1_arg0 m ρ c, H0.V1_v19 m ρ c, H0.V1_arg3 m ρ c, H0.V1_arg4 m ρ c, H0.V1_v20 m ρ c, meanK_eq, biasRow]

/-- THE RESULT ARRAY after the second region. -/
theorem out_eq (c : Dev nD) :
    W4 m ρ c (Proc.devRef .tc main_v35)
      = out (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (W4_arr m ρ c 5).trans ?_
  rw [R1.final (V3 m ρ) c]
  unfold R1.G
  rw [H1.V3_v21 m ρ c, H1.V3_v33 m ρ c, H1.V3_arg6 m ρ c, H1.V3_arg7 m ρ c, H1.V3_v34 m ρ c]
  rw [H0.W2_arg1 m ρ c, H0.W2_arg2 m ρ c, H0.W2_arg6 m ρ c, H0.W2_arg7 m ρ c, H0.W2_arg8 m ρ c, H0.W2_v7 m ρ c]
  rw [show W2 m ρ c (Proc.devRef .tc main_v21) = R0.G (V1 m ρ) c from (W2_arr m ρ c 5).trans (R0.final (V1 m ρ) c)]
  rw [G0_eq, biasRow, meanK_spelt_eq]
  rfl

end Cert.Sage.KOut

end
-- ==== Proof.lean ====
/-
  Two layers of mean-aggregating graph convolution: a tiled kernel against a whole-array reference.

  Both programs compute, for each of the two layers, out = max(x·Ws + h·Wn + b, 0), where h is, row by row, the sum of
  the rows x(src e) over the edges e into the node, scaled by the in-degree raised to at least one. The gather of source
  rows and the scatter-add into destination rows are the same host operations of the same operands in both programs and
  are never opened. The programs differ in three ways, none of which changes the value over the extended reals:

   * the kernel multiplies the edge sum by 1/max(deg, 1) where the reference divides it by max(deg, 1): the divisor is
     at least one, so both are the product with its inverse;
   * the kernel computes the dense part in blocks of 2000 rows, its matrix products into zero accumulators on operands
     narrowed to bf16 (the identity here), where the reference takes whole dot products: entry (p, q) is the same sum
     over k of x(p,k)·W(k,q) either way, and the fifty row blocks tile the output;
   * the kernel reads the bias as one row recast from the vector and broadcast over the block, the reference
     broadcasts the vector over the whole array: entry (p, q) reads b(q) either way.

  The frames of the two kernel programs are the generated ones; the reference's frame is its generated run with the
  result dropped; no rewrite was applied in printing the idealized kernel, so there is nothing to preserve.
-/
import proofs.«150798_j34514357191329_1_alg».proof.Defs
import proofs.«150798_j34514357191329_1_alg».proof.Proof.Gen.Kernel
import proofs.«150798_j34514357191329_1_alg».proof.Proof.Gen.Kernel.Skeleton
import proofs.«150798_j34514357191329_1_alg».proof.Proof.Gen.Kernel.Launch
import proofs.«150798_j34514357191329_1_alg».proof.Proof.Gen.Kernel.Points
import proofs.«150798_j34514357191329_1_alg».proof.Proof.Gen.Kernel.Frame
import proofs.«150798_j34514357191329_1_alg».proof.Proof.Gen.KernelIdeal
import proofs.«150798_j34514357191329_1_alg».proof.Proof.Gen.KernelIdeal.Skeleton
import proofs.«150798_j34514357191329_1_alg».proof.Proof.Gen.KernelIdeal.Launch
import proofs.«150798_j34514357191329_1_alg».proof.Proof.Gen.KernelIdeal.Points
import proofs.«150798_j34514357191329_1_alg».proof.Proof.Gen.KernelIdeal.Frame
import proofs.«150798_j34514357191329_1_alg».proof.Proof.Gen.ReferenceIdeal
import proofs.«150798_j34514357191329_1_alg».proof.Proof.Gen.ReferenceIdeal.Run
import proofs.«150798_j34514357191329_1_alg».proof.Proof.Gen.Pre_finite_inputs
import proofs.«150798_j34514357191329_1_alg».proof.Proof.SageRef
import proofs.«150798_j34514357191329_1_alg».proof.Proof.SageKRun
import proofs.«150798_j34514357191329_1_alg».proof.Proof.SageKOut
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with their result array at `Cert.Sage.out` of the arguments. -/
theorem algebraic : Cert.algebraic_KernelIdeal_ReferenceIdeal := by
  intro m ρ m' ρ' _ hagree
  refine ⟨fun c => Cert.Sage.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.Sage.KOut.out_eq m ρ c), (h c).2⟩)
      (Cert.KernelIdeal.Run.run_regions (F := Ideal) m ρ)
  · refine (θ_run Cert.ReferenceIdeal.defs _ _).mono (fun _ h c => ⟨(h c).1.trans ?_, (h c).2⟩)
      (Cert.ReferenceIdeal.Value.run (F := Ideal) m' ρ')
    rw [Cert.Sage.res_eq]
    obtain ⟨e0, e1, e2, e3, e4, e5, e6, e7, e8⟩ := hagree c
    rw [e0, e1, e2, e3, e4, e5, e6, e7, e8]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
